-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S2048x512 .f32 .bf16
  ∧ IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16777216 : Shape := ⟨1, ![16777216]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16777216 : S_.BroadcastsInDim S16777216 (![] : Fin 0 → Fin S16777216.rank)
  reducesTo_S16777216_S_d0 : S16777216.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096x4096 .f32) (main_arg3 : FVec F S16777216 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S16777216 .f32 := Host.absf main_arg3
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S16777216 : Shape := ⟨1, ![16777216]⟩
abbrev S4096 : Shape := ⟨1, ![4096]⟩
abbrev S8192x4096 : Shape := ⟨2, ![8192, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S16777216, .f32⟩
  | .hbm, ⟨4, _⟩ => ⟨S4096, .f32⟩
  | .hbm, ⟨5, _⟩ => ⟨S8192x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S16777216_S4096x4096 : S16777216.ShapeCasts S4096x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16777216 : Shape := ⟨1, ![16777216]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S16777216, .f32⟩
  | .hbm, ⟨4, _⟩ => ⟨S4096, .f32⟩
  | .hbm, ⟨5, _⟩ => ⟨S8192x4096, .f32⟩
  | .hbm, ⟨6, _⟩ => ⟨S4096x4096, .f32⟩
  | .hbm, ⟨7, _⟩ => ⟨S4096x4096, .f32⟩
  | .hbm, ⟨8, _⟩ => ⟨S8192x4096, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S4x2048x4096_S8192x4096 : S4x2048x4096.ShapeCasts S8192x4096
  transposes_S4096x4096_S4096x4096_1_0 : S4096x4096.Transposes [1, 0] S4096x4096
  shapeCasts_S16777216_S4096x4096 : S16777216.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics shared by the two programs, with no program in sight.

  Both compute, from a matrix `X` (8192 × 4096), a weight `W` (4096 × 4096, stored output-row major:
  entry `(j, k)` multiplies column `k` of `X` into output column `j`) and a bias row `B` (1 × 4096),

      Y (i, j) = (∑ k, X (i, k) · W (j, k)) + B (0, j)                       (`linear`)

  over the extended reals. The kernel reaches it by accumulating the contraction in eight stretches of 512 terms
  (`psum`, `psum_add`, `psum_full`), each stretch computed from an operand split into itself and its own
  difference with itself (zero for a real entry: `IsReal.sub_self`); the reference computes the products with the two
  summands of `W` separately and adds them (`sum_mul_add`: distributivity, which over the extended reals needs the
  entries to be real numbers, `IsReal`).
-/
import Idealize.ShloMosaic.PureOps.Ideal
import Idealize.ShloMosaic.Lib.ValueIdx

noncomputable section

namespace Cert.Spec

open Idealize.ShloMosaic Idealize.ShloMosaic.ValueIdx

/-! ## Extended reals that are real numbers -/

/-- An extended real that is a real number (neither infinity). -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real number minus itself is zero (false at either infinity). -/
theorem IsReal.sub_self {x : EReal} (hx : IsReal x) : x - x = 0 := by
  obtain ⟨a, rfl⟩ := hx
  rw [← EReal.coe_sub, _root_.sub_self, EReal.coe_zero]

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- DISTRIBUTIVITY under a finite sum, for real entries: `∑ x·(a + b) = ∑ x·a + ∑ x·b`. -/
theorem sum_mul_add {ι : Type*} [Fintype ι] (x a b : ι → EReal) (hx : ∀ k, IsReal (x k)) (ha : ∀ k, IsReal (a k))
    (hb : ∀ k, IsReal (b k)) : ∑ k, x k * (a k + b k) = ∑ k, x k * a k + ∑ k, x k * b k := by
  choose x' hx' using hx
  choose a' ha' using ha
  choose b' hb' using hb
  obtain rfl : x = fun k => ((x' k : ℝ) : EReal) := funext hx'
  obtain rfl : a = fun k => ((a' k : ℝ) : EReal) := funext ha'
  obtain rfl : b = fun k => ((b' k : ℝ) : EReal) := funext hb'
  simp only [← EReal.coe_add, ← EReal.coe_mul, ← coe_sum, mul_add, Finset.sum_add_distrib]

/-! ## A sum of 4096 terms taken in stretches -/

/-- The terms of a sum over `Fin 4096` as a sequence (zero past the end). -/
def term (f : Fin 4096 → EReal) (n : ℕ) : EReal := if h : n < 4096 then f ⟨n, h⟩ else 0

/-- The sum of the first `n` terms. -/
def psum (f : Fin 4096 → EReal) (n : ℕ) : EReal := ∑ k ∈ Finset.range n, term f k

theorem psum_zero (f : Fin 4096 → EReal) : psum f 0 = 0 := Finset.sum_range_zero _

/-- One more stretch of 512 terms. -/
theorem psum_add (f : Fin 4096 → EReal) (n : ℕ) (h : n + 512 ≤ 4096) :
    psum f (n + 512) = psum f n + ∑ j : Fin 512, f ⟨n + j.val, by have := j.isLt; omega⟩ := by
  unfold psum
  rw [Finset.sum_range_add, ← Fin.sum_univ_eq_sum_range (fun j => term f (n + j)) 512]
  refine congrArg (_ + ·) (Finset.sum_congr rfl fun j _ => ?_)
  unfold term
  rw [dif_pos (by have := j.isLt; omega)]

/-- All eight stretches: the whole sum. -/
theorem psum_full (f : Fin 4096 → EReal) : psum f 4096 = ∑ k, f k := by
  unfold psum
  rw [Finset.sum_range]
  refine Finset.sum_congr rfl fun k _ => ?_
  unfold term
  rw [dif_pos k.isLt]

/-! ## Block coordinates

The kernel walks a 4 × 4 × 8 grid with the contraction stretch innermost: point `n` is row block `n / 32`, column block
`n / 8 % 4`, stretch `n % 8`; a row block is 2048 rows, a column block 1024 columns, a stretch 512 contracted positions. -/

/-- The row of the result (and of `X`) that row `p` of point `n`'s block is. -/
def row (n : ℕ) (p : Fin 2048) : Fin 8192 := ⟨2048 * (n / 32 % 4) + p.val, by have := p.isLt; omega⟩
/-- The column of the result (the row of `W`) that column `q` of point `n`'s block is. -/
def col (n : ℕ) (q : Fin 1024) : Fin 4096 := ⟨1024 * (n / 8 % 4) + q.val, by have := q.isLt; omega⟩
/-- The contracted position that position `k` of point `n`'s stretch is. -/
def pos (n : ℕ) (k : Fin 512) : Fin 4096 := ⟨512 * (n % 8) + k.val, by have := k.isLt; omega⟩

/-! ## The result -/

/-- The products summed at output entry `(i, j)`: row `i` of `X` against row `j` of `W`. -/
abbrev prods (X : (⟨2, ![8192, 4096]⟩ : Shape).Idx → EReal) (W : (⟨2, ![4096, 4096]⟩ : Shape).Idx → EReal)
    (i : Fin 8192) (j : Fin 4096) : Fin 4096 → EReal := fun k => X (ix2 i k) * W (ix2 j k)

/-- `Y = X · Wᵀ + B`, entry by entry. -/
def linear (X : (⟨2, ![8192, 4096]⟩ : Shape).Idx → EReal) (W : (⟨2, ![4096, 4096]⟩ : Shape).Idx → EReal)
    (B : (⟨2, ![1, 4096]⟩ : Shape).Idx → EReal) : (⟨2, ![8192, 4096]⟩ : Shape).Idx → EReal :=
  fun i => (∑ k : Fin 4096, prods X W (i 0) (i 1) k) + B (ix2 (0 : Fin 1) (i 1))

end Cert.Spec

end
-- ==== Proof.Blocks.lean ====
/-
  Where the kernel's blocks sit in the arrays, and what those arrays are.

  The grid is 4 × 4 × 8, walked with the contraction stretch innermost: point `n` is row block `n / 32`, column block
  `n / 8 % 4`, stretch `n % 8`. At it the body is handed
    rows `2048·(n/32) + p`, columns `512·(n%8) + k` of the 8192 × 4096 left matrix       (`left_apply`),
    rows `1024·(n/8%4) + q`, columns `512·(n%8) + k` of the 4096 × 4096 weight             (`weight_apply`),
    columns `1024·(n/8%4) + q` of the 1 × 4096 bias row                                      (`bias_apply`),
  and it writes rows `2048·(n/32) + p`, columns `1024·(n/8%4) + q` of the 8192 × 4096 result.
  The three arrays are what the host lines before the launch computed from the arguments: the first argument reshaped, the
  product of the second and third plus the fourth reshaped, and the fifth reshaped to one row (`left_eq`, `weight_eq`,
  `bias_eq`).
-/
import proofs.«160865_j30837865185920_2_alg».proof.Proof.Gen.KernelIdeal.Frame
import proofs.«160865_j30837865185920_2_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.Spec

/-! ## Block indices -/

/-- The grid has 128 points. -/
theorem lt_128 (t : Fin cfg0.N) : t.val < 128 := lt_of_lt_of_eq t.isLt (show cfg0.N = 128 from N_0)

/-- The block index of every window at every point, decided over the grid. -/
theorem block_index : ∀ t : Fin cfg0.N,
    (win0_0.index t (0 : Fin 2) = t.val / 32 ∧ win0_0.index t (1 : Fin 2) = t.val % 8)
    ∧ (win0_1.index t (0 : Fin 2) = t.val / 8 % 4 ∧ win0_1.index t (1 : Fin 2) = t.val % 8)
    ∧ (win0_2.index t (0 : Fin 2) = 0 ∧ win0_2.index t (1 : Fin 2) = t.val / 8 % 4)
    ∧ (win0_3.index t (0 : Fin 2) = t.val / 32 ∧ win0_3.index t (1 : Fin 2) = t.val / 8 % 4) :=
  (by decide +kernel : ∀ t : Fin grid0.N,
    (win0_0.index t (0 : Fin 2) = t.val / 32 ∧ win0_0.index t (1 : Fin 2) = t.val % 8)
    ∧ (win0_1.index t (0 : Fin 2) = t.val / 8 % 4 ∧ win0_1.index t (1 : Fin 2) = t.val % 8)
    ∧ (win0_2.index t (0 : Fin 2) = 0 ∧ win0_2.index t (1 : Fin 2) = t.val / 8 % 4)
    ∧ (win0_3.index t (0 : Fin 2) = t.val / 32 ∧ win0_3.index t (1 : Fin 2) = t.val / 8 % 4))

variable {F : FTy → Type} [FloatOps F]
variable (m : (ℓ : Loc nD τ sig) → Buf (Elt F) ℓ)

/-! ## The input blocks read at an entry -/

/-- The left operand block of point `t`, at `(p, k)`. -/
theorem left_apply (c : Dev nD) (t : Fin cfg0.N) (p : Fin 2048) (k : Fin 512) :
    (iblk m c 0 t : Vec F S2048x512 .f32) (ix2 p k) = V m c main_v0 (ix2 (row t.val p) (pos t.val k)) := by
  have hi := (block_index t).1
  have hN := lt_128 t
  unfold iblk
  rw [View.read_apply]
  show V m c main_v0 _ = V m c main_v0 _
  congr 1
  funext a
  apply Fin.ext
  match a with
  | ⟨0, _⟩ => show win0_0.index t 0 * 2048 + 1 * p.val = 2048 * (t.val / 32 % 4) + p.val; rw [hi.1]; omega
  | ⟨1, _⟩ => show win0_0.index t 1 * 512 + 1 * k.val = 512 * (t.val % 8) + k.val; rw [hi.2]; omega

/-- The weight operand block of point `t`, at `(q, k)`. -/
theorem weight_apply (c : Dev nD) (t : Fin cfg0.N) (q : Fin 1024) (k : Fin 512) :
    (iblk m c 1 t : Vec F S1024x512 .f32) (ix2 q k) = V m c main_v3 (ix2 (col t.val q) (pos t.val k)) := by
  have hi := (block_index t).2.1
  unfold iblk
  rw [View.read_apply]
  show V m c main_v3 _ = V m c main_v3 _
  congr 1
  funext a
  apply Fin.ext
  match a with
  | ⟨0, _⟩ => show win0_1.index t 0 * 1024 + 1 * q.val = 1024 * (t.val / 8 % 4) + q.val; rw [hi.1]; omega
  | ⟨1, _⟩ => show win0_1.index t 1 * 512 + 1 * k.val = 512 * (t.val % 8) + k.val; rw [hi.2]; omega

/-- The bias block of point `t`, at its one row's entry `q`. -/
theorem bias_apply (c : Dev nD) (t : Fin cfg0.N) (q : Fin 1024) :
    (iblk m c 2 t : Vec F S1x1024 .f32) (ix2 (0 : Fin 1) q) = V m c main_v4 (ix2 (0 : Fin 1) (col t.val q)) := by
  have hi := (block_index t).2.2.1
  unfold iblk
  rw [View.read_apply]
  show V m c main_v4 _ = V m c main_v4 _
  congr 1
  funext a
  apply Fin.ext
  match a with
  | ⟨0, _⟩ => show win0_2.index t 0 * 1 + 1 * 0 = 0; rw [hi.1]
  | ⟨1, _⟩ => show win0_2.index t 1 * 1024 + 1 * q.val = 1024 * (t.val / 8 % 4) + q.val; rw [hi.2]; omega

/-! ## The arrays the launch finds -/

/-- The left matrix: the first argument, reshaped. -/
theorem left_eq (c : Dev nD) : (V m c main_v0 : S8192x4096.Idx → Elt F .f32)
    = shapeCast S8192x4096 (m ((c : Thread nD τ).loc main_arg0)) shapeCasts_S4x2048x4096_S8192x4096 := by
  show StableHlo.after hostOps0 (fun b => m (c, b)) (Proc.devRef .tc main_v0) = _
  after_results; rfl

/-- The weight: the second argument times the third, entry by entry, plus the fourth reshaped. -/
theorem weight_eq (c : Dev nD) : (V m c main_v3 : S4096x4096.Idx → Elt F .f32)
    = addf (mulf (m ((c : Thread nD τ).loc main_arg1)) (m ((c : Thread nD τ).loc main_arg2)))
        (shapeCast S4096x4096 (m ((c : Thread nD τ).loc main_arg3)) shapeCasts_S16777216_S4096x4096) := by
  show StableHlo.after hostOps0 (fun b => m (c, b)) (Proc.devRef .tc main_v3) = _
  after_results; rfl

/-- The bias row: the fifth argument, reshaped to one row. -/
theorem bias_eq (c : Dev nD) : (V m c main_v4 : S1x4096.Idx → Elt F .f32)
    = shapeCast S1x4096 (m ((c : Thread nD τ).loc main_arg4)) shapeCasts_S4096_S1x4096 := by
  show StableHlo.after hostOps0 (fun b => m (c, b)) (Proc.devRef .tc main_v4) = _
  after_results; rfl

end Cert.KernelIdeal.Blocks

end
-- ==== Proof.Pieces.lean ====
/-
  What one run of the kernel body leaves behind, as values.

  The body has three control cases along the innermost grid axis (the contraction stretch `k`):
    first stretch  (k = 0):      the accumulator is reset to zero, then the stretch's product is added;
    middle stretch (0 < k < 7):  the stretch's product is added to what the stretch before left;
    last stretch   (k = 7):      the same, and the output block is written: accumulator plus the bias row.
  Each case's stores cover the whole accumulator (and, in the last case, the whole output block), so what they leave is
  the stored payload itself, read at the loads' contents: the accumulator update `k0_pay2` of the two operand blocks and
  the previous accumulator (the zero block `k0_pay1` in the first case), and the output `k0_pay3` of the updated
  accumulator and the bias block. Stated for any float instance.
-/
import proofs.«160865_j30837865185920_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- Every load and store of the body starts at the origin of its buffer. -/
theorem hz : (![0, 0] : Fin 2 → Nat) = fun _ => 0 := funext fun a => by fin_cases a <;> rfl

/-- MIDDLE STRETCH: the accumulator ends at its update by this stretch's blocks. -/
theorem acc_mid (c : Dev nD) (i : grid0.Coords) (a3 : Memref sig .tc .vmem S2048x512 .f32) (h3 : a3.IsWhole) (a4 : Memref sig .tc .vmem S1024x512 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : ¬cond0_1 i) (x0 : Vec F S2048x512 .f32) (x1 : Vec F S1024x512 .f32) (x2 : Vec F S1x1024 .f32) (xs0 : Vec F S2048x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S2048x512) hz,
    View.ld_unit_zero (S := S1024x512) hz, View.ld_unit_zero (S := S2048x1024) hz]

/-- FIRST STRETCH: the accumulator is reset, read back (the zero block just stored), and updated. -/
theorem acc_first (c : Dev nD) (i : grid0.Coords) (a3 : Memref sig .tc .vmem S2048x512 .f32) (h3 : a3.IsWhole) (a4 : Memref sig .tc .vmem S1024x512 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : cond0_0 i) (hc1 : ¬cond0_1 i) (x0 : Vec F S2048x512 .f32) (x1 : Vec F S1024x512 .f32) (x2 : Vec F S1x1024 .f32) :
    sout0_A_0 c i a3 h3 a4 h4 a5 h5 a6 h6 a7 h7 hc0 hc1 x0 x1 x2 = k0_pay2 x0 x1 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz,
    View.ld_unit_zero (S := S1024x512) hz]

/-- LAST STRETCH, the accumulator: updated as in the middle stretches. -/
theorem acc_last (c : Dev nD) (i : grid0.Coords) (a3 : Memref sig .tc .vmem S2048x512 .f32) (h3 : a3.IsWhole) (a4 : Memref sig .tc .vmem S1024x512 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i) (x0 : Vec F S2048x512 .f32) (x1 : Vec F S1024x512 .f32) (x2 : Vec F S1x1024 .f32) (xs0 : Vec F S2048x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S2048x512) hz,
    View.ld_unit_zero (S := S1024x512) hz, View.ld_unit_zero (S := S2048x1024) hz]

/-- LAST STRETCH, the output block: the updated accumulator, read back, plus the bias block. -/
theorem out_last (c : Dev nD) (i : grid0.Coords) (a3 : Memref sig .tc .vmem S2048x512 .f32) (h3 : a3.IsWhole) (a4 : Memref sig .tc .vmem S1024x512 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i) (x0 : Vec F S2048x512 .f32) (x1 : Vec F S1024x512 .f32) (x2 : Vec F S1x1024 .f32) (xs0 : Vec F S2048x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S2048x1024) _ hz]
  simp only [View.readAt_eq_ld, h3.read_unread, h4.read_unread, h5.read_unread, h7.read_unread,
    View.ld_unit_zero (S := S2048x512) hz, View.ld_unit_zero (S := S1024x512) hz, View.ld_unit_zero (S := S2048x1024) hz,
    View.ld_unit_zero (S := S1x1024) hz]

end Cert.KernelIdeal.Pieces

end
-- ==== Proof.Payload.lean ====
/-
  The body's three payloads read entry by entry over the extended reals.

  The zero block is zero everywhere. The accumulator update adds, at entry `(p, q)` of the 2048 × 1024 block, the product
  of row `p` of the first operand block (2048 × 512) with row `q` of the second (1024 × 512): the body splits each
  operand `a` into `a` and `a − a` and sums the four cross products; for real entries `a − a = 0`, a product with a
  zero block is a sum of zeros, and what remains is the one product `∑ k, a (p, k) · b (q, k)`. (A change of float format
  is the identity here, and a matrix product into a zero accumulator is the plain sum over the contracted axis.) The
  output adds the bias block's one row, entry `q`, to every row.
-/
import proofs.«160865_j30837865185920_2_alg».proof.Proof.Gen.KernelIdeal.Skeleton
import proofs.«160865_j30837865185920_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal Cert.KernelIdeal.Gen Cert.Spec

/-- The dimension numbers of the body's four matrix products: both operands contract their second axis. -/
local notation "DD" => dot_S2048x512_S1024x512_S2048x1024_1_1_0_0_n_n

theorem lhs_row (j : S2048x1024.Idx) (κ : (DD).contr.Idx) : ((DD).lhsIdx j κ 0).val = (j 0).val := by
  unfold DotDims.lhsIdx
  rw [dif_neg (show ¬(0 : Fin S2048x512.rank) ∈ (DD).lhsBatch by decide),
    dif_pos (show (0 : Fin S2048x512.rank) ∈ (DD).lhsNonContracting by decide)]
  rfl

theorem lhs_col (j : S2048x1024.Idx) (κ : (DD).contr.Idx) : ((DD).lhsIdx j κ 1).val = (κ ⟨0, by decide⟩).val :=
  (DD).lhsIdx_val_of_single rfl j κ

theorem rhs_row (j : S2048x1024.Idx) (κ : (DD).contr.Idx) : ((DD).rhsIdx j κ 0).val = (j 1).val := by
  unfold DotDims.rhsIdx
  rw [dif_neg (show ¬(0 : Fin S1024x512.rank) ∈ (DD).rhsBatch by decide),
    dif_pos (show (0 : Fin S1024x512.rank) ∈ (DD).rhsNonContracting by decide)]
  rfl

theorem rhs_col (j : S2048x1024.Idx) (κ : (DD).contr.Idx) : ((DD).rhsIdx j κ 1).val = (κ ⟨0, by decide⟩).val :=
  (DD).rhsIdx_val_of_single rfl j κ

/-- ONE MATRIX PRODUCT into the zero accumulator, at entry `(p, q)`: row `p` of the left operand against row `q` of the
    right one, summed over the 512 contracted positions. -/
theorem product_apply {φ₁ φ₂ : FTy} (a : FVec Ideal S2048x512 φ₁) (b : FVec Ideal S1024x512 φ₂) (p : Fin 2048) (q : Fin 1024) :
    FloatOps.matmul (DD) none a b (constant (F := Ideal) S2048x1024 .f32 0x00000000#32) (ix2 p q)
      = ∑ k : Fin 512, a (ix2 p k) * b (ix2 q k) := by
  rw [Ideal.matmul_constant_zero_apply, ← Equiv.sum_comp (contrEquiv1 (DD) 512 rfl rfl).symm]
  refine Finset.sum_congr rfl fun k _ => ?_
  have hk := contrEquiv1_symm_val (DD) 512 rfl rfl k
  have el : (DD).lhsIdx (ix2 p q) ((contrEquiv1 (DD) 512 rfl rfl).symm k) = ix2 p k := funext fun ax => Fin.ext (by
    match ax with
    | ⟨0, _⟩ => exact lhs_row _ _
    | ⟨1, _⟩ => exact (lhs_col _ _).trans hk)
  have er : (DD).rhsIdx (ix2 p q) ((contrEquiv1 (DD) 512 rfl rfl).symm k) = ix2 q k := funext fun ax => Fin.ext (by
    match ax with
    | ⟨0, _⟩ => exact rhs_row _ _
    | ⟨1, _⟩ => exact (rhs_col _ _).trans hk)
  rw [el, er]

/-- The zero block, at any entry. -/
theorem zero_apply (j : S2048x1024.Idx) : k0_pay1 (F := Ideal) j = 0 := by
  unfold k0_pay1
  rw [shapeCast_self]
  exact Ideal.ofBits_zero_f32

/-- THE ACCUMULATOR UPDATE at entry `(p, q)`, for operand blocks of real entries: the old entry plus one product. -/
theorem update_apply (a : Vec Ideal S2048x512 .f32) (b : Vec Ideal S1024x512 .f32) (acc : Vec Ideal S2048x1024 .f32)
    (ha : ∀ y, IsReal (a y)) (hb : ∀ y, IsReal (b y)) (p : Fin 2048) (q : Fin 1024) :
    k0_pay2 (F := Ideal) a b acc (ix2 p q) = acc (ix2 p q) + ∑ k : Fin 512, a (ix2 p k) * b (ix2 q k) := by
  have za : subf (F := Ideal) (φ := .f32) a a = fun _ => (0 : EReal) := funext fun y => (ha y).sub_self
  have zb : subf (F := Ideal) (φ := .f32) b b = fun _ => (0 : EReal) := funext fun y => (hb y).sub_self
  unfold k0_pay2
  simp only [shapeCast_self, za, zb]
  show acc (ix2 p q) + (((FloatOps.matmul (F := Ideal) (DD) none _ _ _ (ix2 p q) + FloatOps.matmul (F := Ideal) (DD) none _ _ _ (ix2 p q))
    + FloatOps.matmul (F := Ideal) (DD) none _ _ _ (ix2 p q)) + FloatOps.matmul (F := Ideal) (DD) none _ _ _ (ix2 p q)) = _
  rw [product_apply, product_apply, product_apply, product_apply]
  simp only [truncf_apply, mul_zero, zero_mul, Finset.sum_const_zero, add_zero]

/-- ONE STRETCH. If the operand blocks are point `n`'s blocks of `X` and `W` (real entries) and the accumulator's entry
    `(p, q)` holds the first `512·(n % 8)` products of its row of `X` against its row of `W`, the update leaves the first
    `512·(n % 8 + 1)`. -/
theorem stretch (X : (⟨2, ![8192, 4096]⟩ : Shape).Idx → EReal) (W : (⟨2, ![4096, 4096]⟩ : Shape).Idx → EReal)
    (hX : ∀ i, IsReal (X i)) (hW : ∀ i, IsReal (W i)) (n : ℕ)
    (a : Vec Ideal S2048x512 .f32) (b : Vec Ideal S1024x512 .f32) (acc : Vec Ideal S2048x1024 .f32)
    (ha : ∀ p k, a (ix2 p k) = X (ix2 (row n p) (pos n k))) (hb : ∀ q k, b (ix2 q k) = W (ix2 (col n q) (pos n k)))
    (p : Fin 2048) (q : Fin 1024) (hacc : acc (ix2 p q) = psum (prods X W (row n p) (col n q)) (512 * (n % 8))) :
    k0_pay2 (F := Ideal) a b acc (ix2 p q) = psum (prods X W (row n p) (col n q)) (512 * (n % 8 + 1)) := by
  have ha' : ∀ y, IsReal (a y) := fun y => by
    obtain ⟨p', k', rfl⟩ : ∃ (p' : Fin 2048) (k' : Fin 512), y = ix2 p' k' := ⟨y 0, y 1, eq_ix2 y⟩
    rw [ha]; exact hX _
  have hb' : ∀ y, IsReal (b y) := fun y => by
    obtain ⟨q', k', rfl⟩ : ∃ (q' : Fin 1024) (k' : Fin 512), y = ix2 q' k' := ⟨y 0, y 1, eq_ix2 y⟩
    rw [hb]; exact hW _
  rw [update_apply a b acc ha' hb', hacc, show 512 * (n % 8 + 1) = 512 * (n % 8) + 512 from by ring,
    psum_add _ _ (by omega)]
  refine congrArg (_ + ·) (Finset.sum_congr rfl fun k _ => ?_)
  rw [ha, hb]
  rfl

/-- THE OUTPUT at entry `(p, q)`: the accumulator's entry plus entry `q` of the bias block's one row. -/
theorem output_apply (acc : Vec Ideal S2048x1024 .f32) (bias : Vec Ideal S1x1024 .f32) (p : Fin 2048) (q : Fin 1024) :
    k0_pay3 (F := Ideal) acc bias (ix2 p q) = acc (ix2 p q) + bias (ix2 (0 : Fin 1) q) := by
  unfold k0_pay3
  rw [shapeCast_self]
  show acc (ix2 p q) + broadcastTo S2048x1024 bias _ (ix2 p q) = _
  rw [broadcastTo_1b_ab_apply]

end Cert.KernelIdeal.Payload

end
-- ==== Proof.Accum.lean ====
/-
  What the accumulator and the output block hold after each grid point, over the extended reals.

  Write `X`, `W`, `B` for the three arrays the launch finds (real entries in `X` and `W`). By induction along the
  grid: after point `n` — row block `n / 32`, column block `n / 8 % 4`, stretch `n % 8` — entry `(p, q)` of the
  accumulator is the sum of the first `512·(n % 8 + 1)` products of that entry's row of `X` against its row of `W`
  (`acc_eq`). A first stretch starts from the zero block; a later one continues the point before, which has the same row
  and column block. After a last stretch (`n % 8 = 7`) that is all 4096 products, and the output block's entry is this sum
  plus the bias entry of its column (`out_eq`).
-/
import proofs.«160865_j30837865185920_2_alg».proof.Proof.Gen.KernelIdeal.Frame
import proofs.«160865_j30837865185920_2_alg».proof.Proof.Spec
import proofs.«160865_j30837865185920_2_alg».proof.Proof.Pieces
import proofs.«160865_j30837865185920_2_alg».proof.Proof.Payload
import proofs.«160865_j30837865185920_2_alg».proof.Proof.Blocks

set_option maxRecDepth 16384

noncomputable section

namespace Cert.KernelIdeal.Accum

open Idealize.ShloMosaic Idealize.ShloMosaic.TcCoe Idealize.SL.Sem Idealize.ShloMosaic.ValueIdx
open Cert.KernelIdeal Cert.KernelIdeal.Gen Cert.Spec Cert.KernelIdeal.Blocks

variable (m : (ℓ : Loc nD τ sig) → Buf (Elt Ideal) ℓ) (c : Dev nD)

/-- The left matrix, the weight and the bias row as the launch finds them. -/
abbrev X : S8192x4096.Idx → EReal := V m c main_v0
abbrev W : S4096x4096.Idx → EReal := V m c main_v3
abbrev B : S1x4096.Idx → EReal := V m c main_v4

/-- THE ACCUMULATOR after point `n`, entry by entry: the first `512·(n % 8 + 1)` products. -/
theorem acc_eq (hX : ∀ i, IsReal (X m c i)) (hW : ∀ i, IsReal (W m c i)) :
    ∀ (n : ℕ) (h : n < cfg0.N) (p : Fin 2048) (q : Fin 1024),
      (outsAt0 m c n h).2 (ix2 p q) = psum (prods (X m c) (W m c) (row n p) (col n q)) (512 * (n % 8 + 1)) := by
  intro n
  induction n using Nat.strong_induction_on with
  | _ n ih =>
    intro h p q
    have hN : n < 128 := lt_of_lt_of_eq h (show cfg0.N = 128 from N_0)
    by_cases h0 : n % 8 = 0
    · have h1 : ¬n % 8 = 7 := by omega
      rw [outsAt0_A m c ⟨n, h⟩ h0 h1]
      dsimp only
      rw [Pieces.acc_first]
      refine Payload.stretch (X m c) (W m c) hX hW n (iblk m c 0 ⟨n, h⟩) (iblk m c 1 ⟨n, h⟩) (k0_pay1 (F := Ideal))
        (left_apply m c ⟨n, h⟩) (weight_apply m c ⟨n, h⟩) p q ?_
      rw [Payload.zero_apply, h0, Nat.mul_zero, psum_zero]
    · have hprev := ih (n - 1) (by omega) (Nat.lt_of_le_of_lt (Nat.sub_le _ _) h) p q
      have er : row (n - 1) p = row n p :=
        Fin.ext (by show 2048 * ((n - 1) / 32 % 4) + p.val = 2048 * (n / 32 % 4) + p.val; omega)
      have ec : col (n - 1) q = col n q :=
        Fin.ext (by show 1024 * ((n - 1) / 8 % 4) + q.val = 1024 * (n / 8 % 4) + q.val; omega)
      have ek : 512 * ((n - 1) % 8 + 1) = 512 * (n % 8) := by omega
      rw [er, ec, ek] at hprev
      by_cases h1 : n % 8 = 7
      · rw [outsAt0_C m c ⟨n, h⟩ h0 h1]
        dsimp only
        rw [Pieces.acc_last]
        exact Payload.stretch (X m c) (W m c) hX hW n (iblk m c 0 ⟨n, h⟩) (iblk m c 1 ⟨n, h⟩) _
          (left_apply m c ⟨n, h⟩) (weight_apply m c ⟨n, h⟩) p q hprev
      · rw [outsAt0_B m c ⟨n, h⟩ h0 h1]
        dsimp only
        rw [Pieces.acc_mid]
        exact Payload.stretch (X m c) (W m c) hX hW n (iblk m c 0 ⟨n, h⟩) (iblk m c 1 ⟨n, h⟩) _
          (left_apply m c ⟨n, h⟩) (weight_apply m c ⟨n, h⟩) p q hprev

/-- THE OUTPUT BLOCK after a last stretch, entry by entry: the whole product plus the bias. -/
theorem out_eq (hX : ∀ i, IsReal (X m c i)) (hW : ∀ i, IsReal (W m c i)) (n : ℕ) (h : n < cfg0.N) (h7 : n % 8 = 7)
    (p : Fin 2048) (q : Fin 1024) :
    (outsAt0 m c n h).1 (ix2 p q) = linear (X m c) (W m c) (B m c) (ix2 (row n p) (col n q)) := by
  have h0 : ¬n % 8 = 0 := by omega
  have hacc := acc_eq m c hX hW n h p q
  rw [outsAt0_C m c ⟨n, h⟩ h0 h7] at hacc ⊢
  dsimp only at hacc ⊢
  rw [Pieces.acc_last] at hacc
  rw [Pieces.out_last, Payload.output_apply, hacc, show 512 * (n % 8 + 1) = 4096 from by omega, psum_full,
    bias_apply m c ⟨n, h⟩ q]
  rfl

end Cert.KernelIdeal.Accum

end
-- ==== Proof.Final.lean ====
/-
  From blocks to the array, and through the reshape that follows the launch.

  The output window writes a block back only after a last stretch (points `n` with `n % 8 = 7`); what it writes there is
  the block of ONE function of the whole arrays, `linear X W B` — entry `(p, q)` of point `n`'s block is entry
  `(2048·(n/32) + p, 1024·(n/8%4) + q)` of it (`flushed_eq`). Every entry `(r, s)` of the 8192 × 4096 result lies in
  the block written at point `32·(r/2048) + 8·(s/1024) + 7` (`cover`), so after the launch the result array is that
  function (`final`). The one host line after the launch reshapes it to 4 × 2048 × 4096 (`result_eq`), and the run of
  the whole program ends with the result buffer there and the arguments unchanged (`run`).
-/
import proofs.«160865_j30837865185920_2_alg».proof.Proof.Gen.KernelIdeal.Frame
import proofs.«160865_j30837865185920_2_alg».proof.Proof.Spec
import proofs.«160865_j30837865185920_2_alg».proof.Proof.Blocks
import proofs.«160865_j30837865185920_2_alg».proof.Proof.Accum
import Idealize.ShloMosaic.Lib.Pipeline.Value
import Idealize.ShloMosaic.Lib.StableHlo.Run

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Blocks Cert.KernelIdeal.Accum

variable (m : (ℓ : Loc nD τ sig) → Buf (Elt Ideal) ℓ) (ρ : Dev nD → PrngReg)

/-- The result of the launch as one function of the arrays it finds. -/
def launched (c : Dev nD) : S8192x4096.Idx → EReal := linear (X m c) (W m c) (B m c)

/-- WHAT A WRITING POINT WRITES BACK is its block of `launched`. -/
theorem flushed_eq (c : Dev nD) (hX : ∀ i, IsReal (X m c i)) (hW : ∀ i, IsReal (W m c i)) (t : Fin cfg0.N)
    (hf : (cfg0.win 3).flush t = true) :
    (dats m 0 c).flushed 3 t = ((cfg0.win 3).blk t).view.read (Elt Ideal) (launched m c) := by
  have h7 : t.val % 8 = 7 := (flush0_3 t).mp hf
  have hi := (block_index t).2.2.2
  have hN := lt_128 t
  show (cfg0.win 3).cut (grid0.coords t) ((dats m 0 c).after 3 t) = _
  rw [after0_3]
  refine funext fun (j : S2048x1024.Idx) => ?_
  show (outsAt0 m c t.val t.isLt).1 j = launched m c (((cfg0.win 3).blk t).view.emb j)
  obtain ⟨p, q, rfl⟩ : ∃ (p : Fin 2048) (q : Fin 1024), j = ix2 p q := ⟨j 0, j 1, eq_ix2 j⟩
  rw [out_eq m c hX hW t.val t.isLt h7 p q]
  unfold launched
  congr 1
  funext a
  apply Fin.ext
  match a with
  | ⟨0, _⟩ => show 2048 * (t.val / 32 % 4) + p.val = win0_3.index t 0 * 2048 + 1 * p.val; rw [hi.1]; omega
  | ⟨1, _⟩ => show 1024 * (t.val / 8 % 4) + q.val = win0_3.index t 1 * 1024 + 1 * q.val; rw [hi.2]; omega

/-- An entry of the result is in point `t`'s block iff each coordinate is in the block's range on its axis. -/
theorem mem_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v5).slice (win0_3.rect t)).set ↔ _
  rw [View.set_slice_whole, Rect.mem_set_unit]
  exact Iff.rfl

/-- EVERY ENTRY IS WRITTEN: entry `(r, s)` by the last stretch of row block `r / 2048`, column block `s / 1024`. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  obtain ⟨n, hn⟩ : ∃ n, n = 32 * ((i 0).val / 2048) + 8 * ((i 1).val / 1024) + 7 := ⟨_, rfl⟩
  have hlt : n < cfg0.N := by rw [show cfg0.N = 128 from N_0]; omega
  have hi := (block_index ⟨n, hlt⟩).2.2.2
  refine ⟨⟨n, hlt⟩, (flush0_3 _).mpr (by show n % 8 = 7; omega), ?_⟩
  rw [mem_blk]
  intro a
  match a with
  | ⟨0, _⟩ =>
    show win0_3.index ⟨n, hlt⟩ 0 * 2048 ≤ (i 0).val ∧ (i 0).val < win0_3.index ⟨n, hlt⟩ 0 * 2048 + 2048
    rw [hi.1]; show n / 32 * 2048 ≤ (i 0).val ∧ (i 0).val < n / 32 * 2048 + 2048; omega
  | ⟨1, _⟩ =>
    show win0_3.index ⟨n, hlt⟩ 1 * 1024 ≤ (i 1).val ∧ (i 1).val < win0_3.index ⟨n, hlt⟩ 1 * 1024 + 1024
    rw [hi.2]; show n / 8 % 4 * 1024 ≤ (i 1).val ∧ (i 1).val < n / 8 % 4 * 1024 + 1024; omega

/-- THE RESULT ARRAY after the launch. -/
theorem final (c : Dev nD) (hX : ∀ i, IsReal (X m c i)) (hW : ∀ i, IsReal (W m c i)) :
    (dats m 0 c).arrAt 3 cfg0.N = launched m c :=
  (dats m 0 c).arrAt_eq_of_cover 3 (launched m c) (flushed_eq m c hX hW) cover

/-- THE RESULT BUFFER after the reshape that follows the launch. -/
theorem result_eq (c : Dev nD) (hX : ∀ i, IsReal (X m c i)) (hW : ∀ i, IsReal (W m c i)) :
    Pipeline.afterTail₀ cfgs (dats m) 0 (V0 m) [hostOps1] c main_v6
      = shapeCast S4x2048x4096 (launched m c) shapeCasts_S8192x4096_S4x2048x4096 := by
  unfold Pipeline.afterTail₀
  show StableHlo.after hostOps1 _ (Proc.devRef .tc main_v6) = _
  after_results
  have e : Pipeline.withArrays (cfgs 0).spec c (V0 m c) (fun w => (dats m 0 c).arrAt w (cfgs 0).N)
      (Proc.devRef .tc main_v5) = launched m c :=
    (Pipeline.withArrays_arr spec0 launch0.win.arr_inj c (V0 m c) _ 3).trans (final m c hX hW)
  rw [e]
  rfl

/-- THE RUN, READ: from any memory whose left matrix and weight (as the launch finds them) have real entries, every
    weakly fair execution of the program ends with the result buffer at the reshaped `launched` and the five arguments as
    they were. -/
theorem run (hX : ∀ c i, IsReal (X m c i)) (hW : ∀ c i, IsReal (W m c i)) :
    θ_run defs (onTc (τ := τ) (main (F := Ideal))) ⟨m, fun _ => 0, ρ⟩ fun r => ∀ c : Dev nD,
      r.2.mem ((c.tc : Thread nD τ).loc main_v6)
          = shapeCast S4x2048x4096 (launched m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c (hX c) (hW c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.Bridge.lean ====
/-
  The reference computes the same function of the same arrays.

  Before its last reshape the reference holds, at entry `(r, s)`,

      (∑ k, X (r, k) · (a₁ (s, k) · a₂ (s, k))  +  ∑ k, X (r, k) · R (s, k))  +  a₄ (s)        (`ref_apply`)

  with `X` the first argument reshaped to 8192 × 4096, `a₁`, `a₂` the second and third arguments, `R` the fourth reshaped
  to 4096 × 4096 and `a₄` the fifth: each matrix product is taken against a transposed weight, which at an entry reads the
  weight's row `s`; the bias is broadcast along the rows. The kernel's side is `linear X (a₁·a₂ + R) B` with `B` the fifth
  argument as one row. The two agree by distributivity under the sum, for real entries (`agree`).
-/
import proofs.«160865_j30837865185920_2_alg».proof.Proof.Gen.ReferenceIdeal.Read
import proofs.«160865_j30837865185920_2_alg».proof.Proof.Spec
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx
open Cert.ReferenceIdeal Cert.ReferenceIdeal.Read Cert.Spec

variable (x0 : FVec Ideal S4x2048x4096 .f32) (x1 x2 : FVec Ideal S4096x4096 .f32) (x3 : FVec Ideal S16777216 .f32)
  (x4 : FVec Ideal S4096 .f32)

/-- A reshape of an array of real entries has real entries. -/
theorem isReal_shapeCast {s t : Shape} (x : s.Idx → EReal) (h : s.ShapeCasts t) (hx : ∀ i, IsReal (x i)) (j : t.Idx) :
    IsReal (shapeCast t x h j) := by
  unfold shapeCast
  exact hx _

/-- THE REFERENCE before its last reshape, at entry `(r, s)`. -/
theorem ref_apply (r : Fin 8192) (s : Fin 4096) :
    val_main_v10 (F := Ideal) x0 x1 x2 x3 x4 (ix2 r s)
      = ((∑ k : Fin 4096, val_main_v0 (F := Ideal) x0 (ix2 r k) * (x1 (ix2 s k) * x2 (ix2 s k)))
          + ∑ k : Fin 4096, val_main_v0 (F := Ideal) x0 (ix2 r k) * val_main_v4 (F := Ideal) x3 (ix2 s k))
        + x4 (ix1 s) := by
  have el3 : ∀ k, lidx_main_v3 (ix2 r s) k = ix2 r k := fun k => funext fun a => Fin.ext (by
    match a with | ⟨0, _⟩ => rfl | ⟨1, _⟩ => rfl)
  have er3 : ∀ k, idx_main_v2 (ridx_main_v3 (ix2 r s) k) = ix2 s k := fun k => funext fun a => Fin.ext (by
    match a with | ⟨0, _⟩ => rfl | ⟨1, _⟩ => rfl)
  have el6 : ∀ k, lidx_main_v6 (ix2 r s) k = ix2 r k := fun k => funext fun a => Fin.ext (by
    match a with | ⟨0, _⟩ => rfl | ⟨1, _⟩ => rfl)
  have er6 : ∀ k, idx_main_v5 (ridx_main_v6 (ix2 r s) k) = ix2 s k := fun k => funext fun a => Fin.ext (by
    match a with | ⟨0, _⟩ => rfl | ⟨1, _⟩ => rfl)
  have eb : idx_main_v8 (idx_main_v9 (ix2 r s)) = ix1 s := funext fun a => Fin.ext (by
    match a with | ⟨0, _⟩ => rfl)
  rw [val_main_v10_apply, val_main_v7_apply, val_main_v3_apply, val_main_v6_apply, val_main_v9_apply, val_main_v8_apply, eb]
  simp only [val_main_v2_apply, val_main_v5_apply, val_main_v1_apply, el3, er3, el6, er6, Ideal.addf_def, Ideal.mulf_def]

/-- THE TWO SIDES AGREE, for real entries: the kernel's one product against the summed weight is the reference's two
    products added. -/
theorem agree (hk0 : S4x2048x4096.ShapeCasts S8192x4096) (hk3 : S16777216.ShapeCasts S4096x4096) (hk4 : S4096.ShapeCasts S1x4096)
    (h0 : ∀ i, IsReal (x0 i)) (h1 : ∀ i, IsReal (x1 i)) (h2 : ∀ i, IsReal (x2 i)) (h3 : ∀ i, IsReal (x3 i)) :
    linear (shapeCast S8192x4096 x0 hk0) (addf (F := Ideal) (φ := .f32) (mulf (F := Ideal) (φ := .f32) x1 x2) (shapeCast S4096x4096 x3 hk3))
        (shapeCast S1x4096 x4 hk4)
      = val_main_v10 (F := Ideal) x0 x1 x2 x3 x4 := by
  funext i
  obtain ⟨r, s, rfl⟩ : ∃ (r : Fin 8192) (s : Fin 4096), i = ix2 r s := ⟨i 0, i 1, eq_ix2 i⟩
  rw [ref_apply]
  unfold linear
  show (∑ k : Fin 4096, shapeCast S8192x4096 x0 hk0 (ix2 r k)
      * (x1 (ix2 s k) * x2 (ix2 s k) + shapeCast S4096x4096 x3 hk3 (ix2 s k))) + shapeCast S1x4096 x4 hk4 (ix2 (0 : Fin 1) s) = _
  rw [shapeCast_a_1a_apply]
  refine (congrArg (· + x4 (ix1 s)) (sum_mul_add (fun k : Fin 4096 => shapeCast S8192x4096 x0 hk0 (ix2 r k))
    (fun k => x1 (ix2 s k) * x2 (ix2 s k)) (fun k => shapeCast S4096x4096 x3 hk3 (ix2 s k))
    (fun k => isReal_shapeCast x0 hk0 h0 _) (fun k => (h1 _).mul (h2 _)) (fun k => isReal_shapeCast x3 hk3 h3 _))).trans ?_
  rfl

end Cert.ReferenceIdeal.RefValue

end
-- ==== Proof.Finite.lean ====
/-
  The precondition, read: every entry of every argument is a real number.

  The precondition is the conjunction, over the five arguments, of "every entry's absolute value is below the word
  `0x7F800000`", which over the extended reals is `+∞`. An extended real whose absolute value `max x (−x)` is below
  `+∞` is neither infinity, so it is a real number.
-/
import proofs.«160865_j30837865185920_2_alg».proof.Pre_finite_inputs
import proofs.«160865_j30837865185920_2_alg».proof.Proof.Gen.Pre_finite_inputs
import proofs.«160865_j30837865185920_2_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Spec

/-- The scalar shape has one index. -/
instance : Subsingleton S_.Idx := ⟨fun a b => funext fun d => d.elim0⟩

/-- The word `0x7F800000` is `+∞`. -/
theorem inf_word : Ideal.ofBits .f32 0x7F800000#32 = (⊤ : EReal) := by simp [Ideal.ofBits, Ideal.ieee]

/-- `|x| < +∞` says `x` is a real number. -/
theorem isReal_of_abs_lt (x : EReal) (h : Ideal.cmp .olt (max x (-x)) (Ideal.ofBits .f32 0x7F800000#32) = 1#1) :
    IsReal x := by
  rw [inf_word] at h
  induction x using EReal.rec
  · simp [Ideal.cmp] at h
  · exact ⟨_, rfl⟩
  · simp [Ideal.cmp] at h

/-- THE PRECONDITION gives real entries, argument by argument. -/
theorem entries_real (a0 : FVec Ideal S4x2048x4096 .f32) (a1 a2 : FVec Ideal S4096x4096 .f32)
    (a3 : FVec Ideal S16777216 .f32) (a4 : FVec Ideal S4096 .f32)
    (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h' := congrFun h ValueIdx.ix0
  dsimp only [fn, fn_part1] at h'
  obtain ⟨h0123, h4⟩ := IntOp.andi_eq_one.1 h'
  obtain ⟨h012, h3⟩ := IntOp.andi_eq_one.1 h0123
  obtain ⟨h01, h2⟩ := IntOp.andi_eq_one.1 h012
  obtain ⟨h0, h1⟩ := IntOp.andi_eq_one.1 h01
  exact ⟨fun i => isReal_of_abs_lt _ (Host.reduce_andi_all _ _ _ _ _ h0 i),
    fun i => isReal_of_abs_lt _ (Host.reduce_andi_all _ _ _ _ _ h1 i),
    fun i => isReal_of_abs_lt _ (Host.reduce_andi_all _ _ _ _ _ h2 i),
    fun i => isReal_of_abs_lt _ (Host.reduce_andi_all _ _ _ _ _ h3 i),
    fun i => isReal_of_abs_lt _ (Host.reduce_andi_all _ _ _ _ _ h4 i)⟩

end Cert.Finite

end
-- ==== Proof.lean ====
/-
  A fused matrix product with bias against its two-product reference, over the extended reals.

  The kernel reshapes `x` to `X` (8192 × 4096), builds ONE weight `W = sparse_weight · sparse_mask + reshape bb_w`
  (4096 × 4096) on the host, and computes `X · Wᵀ + bias` block by block: a 4 × 4 × 8 grid, 2048 × 1024 output blocks, the
  contraction in eight stretches of 512 accumulated in a scratch block that is reset at the first stretch and, at the last,
  written out with the bias row added. Inside a stretch each operand `a` is split into `a` and `a − a` (a change of float
  format being the identity here) and the four cross products are summed; for real entries `a − a = 0`, so the stretch
  contributes the one product. The reference computes `X · (sparse_weight · sparse_mask)ᵀ + X · (reshape bb_w)ᵀ + bias`.
  Both then reshape to 4 × 2048 × 4096. The two agree by distributivity under the contraction sum, which over the extended
  reals holds because every input entry is a real number (the precondition).

  Modules: Spec (the function `linear`, distributivity, a sum taken in stretches), Pieces (what one run of the body leaves),
  Payload (the body's stored values entry by entry), Blocks (where blocks sit; the arrays the launch finds), Accum (the
  accumulator after each grid point, by induction), Final (blocks to array, the reshape, the run), Bridge (the reference's
  value; the two sides agree), Finite (the precondition read). The frames are the generated ones (the reference's: its
  generated run with the result dropped); the two sites where narrowing to bf16 and widening back was replaced by the operand
  itself are instances of that rule's statement.
-/
import proofs.«160865_j30837865185920_2_alg».proof.Defs
import proofs.«160865_j30837865185920_2_alg».proof.Proof.Gen.Kernel
import proofs.«160865_j30837865185920_2_alg».proof.Proof.Gen.Kernel.Frame
import proofs.«160865_j30837865185920_2_alg».proof.Proof.Gen.KernelIdeal
import proofs.«160865_j30837865185920_2_alg».proof.Proof.Gen.KernelIdeal.Frame
import proofs.«160865_j30837865185920_2_alg».proof.Proof.Gen.ReferenceIdeal
import proofs.«160865_j30837865185920_2_alg».proof.Proof.Gen.ReferenceIdeal.Run
import proofs.«160865_j30837865185920_2_alg».proof.Proof.Gen.ReferenceIdeal.Read
import proofs.«160865_j30837865185920_2_alg».proof.Proof.Gen.Pre_finite_inputs
import proofs.«160865_j30837865185920_2_alg».proof.Proof.Spec
import proofs.«160865_j30837865185920_2_alg».proof.Proof.Blocks
import proofs.«160865_j30837865185920_2_alg».proof.Proof.Accum
import proofs.«160865_j30837865185920_2_alg».proof.Proof.Final
import proofs.«160865_j30837865185920_2_alg».proof.Proof.Bridge
import proofs.«160865_j30837865185920_2_alg».proof.Proof.Finite
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two rewritten sites: narrowing to bf16 and widening back is the identity over the extended reals. -/
theorem preserves : Cert.preserves_Kernel_KernelIdeal :=
  ⟨IdealRules.truncf_extf.statement _ .f32 .bf16, IdealRules.truncf_extf.statement _ .f32 .bf16⟩

/-- Both programs end with the result buffer at the reshape of one and the same 8192 × 4096 function. -/
theorem algebraic : Cert.algebraic_KernelIdeal_ReferenceIdeal := by
  intro m ρ m' ρ' hpre hagree
  have hfin := fun c => Cert.Finite.entries_real _ _ _ _ _ (hpre c)
  have hX : ∀ c i, IsReal (Cert.KernelIdeal.Accum.X m c i) := fun c i => by
    rw [show Cert.KernelIdeal.Accum.X m c = _ from Cert.KernelIdeal.Blocks.left_eq m c]
    exact Cert.ReferenceIdeal.RefValue.isReal_shapeCast _ _ (hfin c).1 i
  have hW : ∀ c i, IsReal (Cert.KernelIdeal.Accum.W m c i) := fun c i => by
    rw [show Cert.KernelIdeal.Accum.W m c = _ from Cert.KernelIdeal.Blocks.weight_eq m c]
    exact (((hfin c).2.1 i).mul ((hfin c).2.2.1 i)).add
      (Cert.ReferenceIdeal.RefValue.isReal_shapeCast _ _ (hfin c).2.2.2.1 i)
  refine ⟨_, Cert.KernelIdeal.Final.run m ρ hX hW, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  unfold Cert.KernelIdeal.Final.launched
  rw [show Cert.KernelIdeal.Accum.X m c = _ from Cert.KernelIdeal.Blocks.left_eq m c,
    show Cert.KernelIdeal.Accum.W m c = _ from Cert.KernelIdeal.Blocks.weight_eq m c,
    show Cert.KernelIdeal.Accum.B m c = _ from Cert.KernelIdeal.Blocks.bias_eq m c,
    Cert.ReferenceIdeal.RefValue.agree _ _ _ _ _ _ _ _ (hfin c).1 (hfin c).2.1 (hfin c).2.2.1 (hfin c).2.2.2.1]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
